-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64 : Shape := ⟨1, ![64]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S262144x64 .f32) (main_arg1 : FVec F S262144x64 .f32) (main_arg2 : FVec F S64 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S262144x64 .f32 := Host.absf main_arg1
  let main_cst_0 : FVec F S_ .f32 := constant S_ .f32 0x7F800000#32
  let main_v5 : FVec F S262144x64 .f32 := broadcastInDim S262144x64 ![] bcast_S_S262144x64 main_cst_0
  let main_v6 : IVec S262144x64 1 := cmpf .olt main_v4 main_v5
  let main_c_1 : IVec S_ 1 := constantI S_ 1 1#1
  let main_v7 : IVec S_ 1 := (fun x v => Host.reduce IntOp.andi x v reducesTo_S262144x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S262144x64 : Shape := ⟨2, ![262144, 64]⟩
abbrev S64 : Shape := ⟨1, ![64]⟩
abbrev S1x64 : Shape := ⟨2, ![1, 64]⟩
abbrev S1x1 : Shape := ⟨2, ![1, 1]⟩
abbrev S4096x64 : Shape := ⟨2, ![4096, 64]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S64, .f32⟩
  | .hbm, ⟨3, _⟩ => ⟨S1x64, .f32⟩
  | .hbm, ⟨4, _⟩ => ⟨S1x1, .f32⟩
  | .hbm, ⟨5, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S1x64, .f32⟩
  | .local _ .vmem, ⟨5, _⟩ => ⟨S1x1, .f32⟩
  | .local _ .vmem, ⟨6, _⟩ => ⟨S1x1, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v33 : BitVec 1 := Scalar.cmpi .eq arg0 c63_i32
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x64_S4096x64_0_0 : ∀ a, (![0, 0] : Fin 2 → Nat) a + S4096x64.size a ≤ S4096x64.size a
  h_S4096x64 : 0 < S4096x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  reduces_S4096x64_S4096 : S4096x64.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S262144x64.size a
  hwx0_0 : ∀ i : grid0.Coords, EltTy.bits .f32 = 32 ∨ (Rect.block (s := S262144x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x64.size a ≤ S262144x64.size a
  hwx0_1 : ∀ i : grid0.Coords, EltTy.bits .f32 = 32 ∨ (Rect.block (s := S262144x64) S4096x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S262144x64 : Shape := ⟨2, ![262144, 64]⟩
abbrev S64 : Shape := ⟨1, ![64]⟩
abbrev S_ : Shape := ⟨0, ![]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x64, .f32⟩
  | .hbm, ⟨2, _⟩ => ⟨S64, .f32⟩
  | .hbm, ⟨3, _⟩ => ⟨S262144x64, .f32⟩
  | .hbm, ⟨4, _⟩ => ⟨S262144x64, .f32⟩
  | .hbm, ⟨5, _⟩ => ⟨S_, .f32⟩
  | .hbm, ⟨6, _⟩ => ⟨S262144x64, .f32⟩
  | .hbm, ⟨7, _⟩ => ⟨S262144x64, .f32⟩
  | .hbm, ⟨8, _⟩ => ⟨S_, .f32⟩
  | .hbm, ⟨9, _⟩ => ⟨S262144x64, .f32⟩
  | .hbm, ⟨10, _⟩ => ⟨S262144x64, .f32⟩
  | .hbm, ⟨11, _⟩ => ⟨S262144x64, .f32⟩
  | .hbm, ⟨12, _⟩ => ⟨S1x64, .f32⟩
  | .hbm, ⟨13, _⟩ => ⟨S262144x64, .f32⟩
  | .hbm, ⟨14, _⟩ => ⟨S262144x64, .f32⟩
  | .hbm, ⟨15, _⟩ => ⟨S_, .f32⟩
  | .hbm, ⟨16, _⟩ => ⟨S262144x64, .f32⟩
  | .hbm, ⟨17, _⟩ => ⟨S262144x64, .f32⟩
  | .hbm, ⟨18, _⟩ => ⟨S_, .f32⟩
  | .hbm, ⟨19, _⟩ => ⟨S262144x64, .f32⟩
  | .hbm, ⟨20, _⟩ => ⟨S262144x64, .f32⟩
  | .hbm, ⟨21, _⟩ => ⟨S262144x64, .f32⟩
  | .hbm, ⟨22, _⟩ => ⟨S262144x64, .f32⟩
  | .hbm, ⟨23, _⟩ => ⟨S_, .f32⟩
  | .hbm, ⟨24, _⟩ => ⟨S262144x64, .f32⟩
  | .hbm, ⟨25, _⟩ => ⟨S262144x64, .f32⟩
  | .hbm, ⟨26, _⟩ => ⟨S262144x64, .f32⟩
  | .hbm, ⟨27, _⟩ => ⟨S262144x64, .f32⟩
  | .hbm, ⟨28, _⟩ => ⟨S262144x64, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩

abbrev nD : Nat := 1
abbrev τ : Topo := Topo.v7x

variable {F : FTy → Type} [FloatOps F]

class Facts₀ : Prop where
  bcast_S_S262144x64 : S_.BroadcastsInDim S262144x64 (![] : Fin 0 → Fin S262144x64.rank)
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  reducesTo_S262144x64_S_d0_1 : S262144x64.ReducesTo [0, 1] S_
  h_S_ : 0 < S_.numel

variable [Facts₀]

class Facts : Prop extends Facts₀ where

variable [Facts]
-- ==== Proof.FocalSpec.lean ====
/-
  The focal binary cross-entropy, mean-reduced, as one number of the three argument arrays.

  With x = inputs, t = targets (both 262144 × 64) and a = alpha (64 entries), one entry's loss is
      ℓ(x, t, a) = −( t · log x · (1 − x)² · a  +  (1 − t) · log (1 − x) · x² )
  and the result is the sum of ℓ over all 262144 × 64 entries, divided by their number 2²⁴.

  Two spellings of an entry meet here.  One squares by a product and negates by subtracting from zero; the other
  squares by the power function with exponent 2 and negates directly.  On a FINITE base the power x² is the product
  x · x (for every real, of either sign); at x = −∞ it is not (the power is −∞, the product +∞), which is where the
  finiteness of the inputs is used.  Subtracting from zero is negation on every extended real.

  The sum is taken in two arrangements: all at once, or 64 blocks of 4096 rows, each block summed row by row and
  the blocks added one after another starting from zero.  Addition of extended reals is commutative and associative
  (infinities included), so the two agree with no finiteness needed.  Dividing by 2²⁴ is multiplying by 2⁻²⁴ on every
  extended real.
-/
import Idealize.ShloMosaic.PureOps.Ideal.Laws
import Idealize.ShloMosaic.Lib.ValueIdx

noncomputable section

open scoped BigOperators

namespace Cert.Focal

open Idealize.ShloMosaic Idealize.ShloMosaic.ValueIdx

/-! ## The literal words -/

/-- `+0.0`. -/
abbrev zeroW : EReal := Ideal.ofBits .f32 0x00000000#32
/-- `1.0`. -/
abbrev oneW : EReal := Ideal.ofBits .f32 0x3F800000#32
/-- `2.0`, the exponent. -/
abbrev twoW : EReal := Ideal.ofBits .f32 0x40000000#32
/-- `16777216.0 = 2²⁴`, the number of entries. -/
abbrev countW : EReal := Ideal.ofBits .f32 0x4B800000#32
/-- `2⁻²⁴`, its reciprocal. -/
abbrev invCountW : EReal := Ideal.ofBits .f32 0x33800000#32

theorem zeroW_eq : zeroW = 0 := Ideal.ofBits_zero_f32

theorem oneW_eq : oneW = ((1 : ℝ) : EReal) := by
  simp [Ideal.ofBits, Ideal.ieee, -EReal.coe_mul]; norm_num

theorem twoW_eq : twoW = ((2 : ℝ) : EReal) := by
  simp [Ideal.ofBits, Ideal.ieee, -EReal.coe_mul]; norm_num

theorem countW_eq : countW = ((16777216 : ℝ) : EReal) := by
  simp [Ideal.ofBits, Ideal.ieee, -EReal.coe_mul]; norm_num

theorem invCountW_eq : invCountW = ((1 / 16777216 : ℝ) : EReal) := by
  simp [Ideal.ofBits, Ideal.ieee, -EReal.coe_mul]; norm_num

/-! ## One entry -/

/-- One entry's loss, squaring by a product and negating by subtraction from zero. -/
def entry (x t a : EReal) : EReal :=
  zeroW - (t * Ideal.log x * ((oneW - x) * (oneW - x)) * a + (oneW - t) * Ideal.log (oneW - x) * (x * x))

/-- One entry's loss, squaring by the power function and negating directly. -/
def entryPow (x t a : EReal) : EReal :=
  -(t * Ideal.log x * Ideal.pow (oneW - x) twoW * a + (oneW - t) * Ideal.log (oneW - x) * Ideal.pow x twoW)

/-- The power with exponent two of a real base is its square, whatever the base's sign. -/
theorem pow_two_coe (r : ℝ) : Ideal.pow (r : EReal) twoW = (r : EReal) * (r : EReal) := by
  rw [twoW_eq, Ideal.pow_coe_coe, ← EReal.coe_mul]
  congr 1
  show r ^ (2 : ℝ) = r * r
  rw [Real.rpow_two, sq]

/-- On a finite `x` the two spellings of an entry are one extended real. -/
theorem entryPow_eq_entry (r : ℝ) (t a : EReal) : entryPow (r : EReal) t a = entry (r : EReal) t a := by
  unfold entryPow entry
  have h1 : oneW - (r : EReal) = ((1 - r : ℝ) : EReal) := by rw [oneW_eq, ← EReal.coe_sub]
  rw [h1, pow_two_coe, pow_two_coe, zeroW_eq, zero_sub]

/-! ## The sum, all at once and block by block -/

/-- The sum of the entries' losses over the whole arrays. -/
def total (X T : (⟨2, ![262144, 64]⟩ : Shape).Idx → EReal) (A : (⟨1, ![64]⟩ : Shape).Idx → EReal) : EReal :=
  ∑ p : Fin 262144, ∑ q : Fin 64, entry (X (ix2 p q)) (T (ix2 p q)) (A (ix1 q))

/-- The result: the mean, as the sum times `2⁻²⁴`, at the scalar's one index. -/
def mean (X T : (⟨2, ![262144, 64]⟩ : Shape).Idx → EReal) (A : (⟨1, ![64]⟩ : Shape).Idx → EReal) :
    (⟨0, ![]⟩ : Shape).Idx → EReal :=
  fun _ => total X T A * invCountW

/-- Row `r` of block `t` is row `4096 t + r` of the array. -/
def rowOf (t : Fin 64) (r : Fin 4096) : Fin 262144 := ⟨4096 * t.val + r.val, by omega⟩

/-- The 262144 rows are the 64 blocks of 4096 rows. -/
def rowEquiv : Fin 64 × Fin 4096 ≃ Fin 262144 where
  toFun x := rowOf x.1 x.2
  invFun p := (⟨p.val / 4096, by omega⟩, ⟨p.val % 4096, by omega⟩)
  left_inv := by
    rintro ⟨t, r⟩
    refine Prod.ext (Fin.ext ?_) (Fin.ext ?_)
    · show (4096 * t.val + r.val) / 4096 = t.val
      omega
    · show (4096 * t.val + r.val) % 4096 = r.val
      omega
  right_inv := by
    intro p
    refine Fin.ext ?_
    show 4096 * (p.val / 4096) + p.val % 4096 = p.val
    omega

/-- A sum over the rows is the sum over the blocks of the sums over each block's rows. -/
theorem sum_rows {M : Type*} [AddCommMonoid M] (f : Fin 262144 → M) :
    ∑ p, f p = ∑ t : Fin 64, ∑ r : Fin 4096, f (rowOf t r) := by
  rw [← Equiv.sum_comp rowEquiv f, Fintype.sum_prod_type]
  rfl

/-- The sum of the losses over block `t`. -/
def blockSum (X T : (⟨2, ![262144, 64]⟩ : Shape).Idx → EReal) (A : (⟨1, ![64]⟩ : Shape).Idx → EReal) (t : Fin 64) : EReal :=
  ∑ r : Fin 4096, ∑ q : Fin 64, entry (X (ix2 (rowOf t r) q)) (T (ix2 (rowOf t r) q)) (A (ix1 q))

theorem total_eq_sum_blocks (X T : (⟨2, ![262144, 64]⟩ : Shape).Idx → EReal) (A : (⟨1, ![64]⟩ : Shape).Idx → EReal) :
    total X T A = ∑ t : Fin 64, blockSum X T A t := by
  unfold total blockSum
  exact sum_rows _

/-- Blocks added one after another, starting from `+0.0`: what has accumulated after block `n`. -/
def accUpTo (B : Fin 64 → EReal) : (n : ℕ) → n < 64 → EReal
  | 0, h => zeroW + B ⟨0, h⟩
  | n + 1, h => accUpTo B n (Nat.lt_of_succ_lt h) + B ⟨n + 1, h⟩

/-- After block `n` the accumulator holds the sum of blocks `0 … n`. -/
theorem accUpTo_eq_sum (B : Fin 64 → EReal) : ∀ (n : ℕ) (h : n < 64),
    accUpTo B n h = ∑ t : Fin (n + 1), B ⟨t.val, lt_of_lt_of_le t.isLt h⟩
  | 0, h => by
    rw [accUpTo, zeroW_eq, zero_add, Fin.sum_univ_one]
    rfl
  | n + 1, h => by
    rw [accUpTo, accUpTo_eq_sum B n (Nat.lt_of_succ_lt h)]
    exact (Fin.sum_univ_castSucc (fun t : Fin (n + 1 + 1) => B ⟨t.val, lt_of_lt_of_le t.isLt h⟩)).symm

/-- After the last block it holds the sum of them all. -/
theorem accUpTo_last (B : Fin 64 → EReal) : accUpTo B 63 (by norm_num) = ∑ t : Fin 64, B t :=
  accUpTo_eq_sum B 63 (by norm_num)

/-- Dividing by the count is multiplying by its reciprocal, on every extended real. -/
theorem div_count (s : EReal) : Ideal.div s countW = s * invCountW := by
  rw [countW_eq, invCountW_eq]
  exact Ideal.div_coe (by norm_num) s

end Cert.Focal

end
-- ==== Proof.RefSide.lean ====
/-
  The reference's result is the mean of the entries' losses.

  Read entry by entry, the reference computes at row p, column q the loss of x = inputs(p, q), t = targets(p, q) and
  a = alpha(q) — alpha enters as a row spread over all rows —, squaring by the power function with exponent 2.  It
  then adds all 262144 × 64 entries to +0.0 and divides by 2²⁴.  On finite inputs each entry is the loss in the
  product spelling, so the result is the mean: the total times 2⁻²⁴.
-/
import proofs.«159501_j20469814133055_2_alg».proof.Proof.Gen.ReferenceIdeal.Read
import proofs.«159501_j20469814133055_2_alg».proof.Proof.FocalSpec
import Idealize.ShloMosaic.Lib.ValueIdx
import Idealize.ShloMosaic.PureOps.Ideal.Laws

noncomputable section

open scoped BigOperators

namespace Cert.Focal.Ref

open Idealize.ShloMosaic Idealize.ShloMosaic.ValueIdx
open Cert.ReferenceIdeal Cert.ReferenceIdeal.Read Cert.Focal

/-- Alpha's row spread over the rows reads, at `(p, q)`, alpha at `q`. -/
theorem alpha_index (p : Fin 262144) (q : Fin 64) :
    idx_main_v7 (idx_main_v8 (ix2 p q)) = ix1 q :=
  funext fun a => match a with | ⟨0, _⟩ => rfl

/-- The reference's negated entry at `(p, q)` is the loss there, in the power spelling. -/
theorem negated_apply (X T : (⟨S262144x64, .f32⟩ : BufTy).Contents (Elt Ideal))
    (A : (⟨S64, .f32⟩ : BufTy).Contents (Elt Ideal)) (p : Fin 262144) (q : Fin 64) :
    val_main_v20 (F := Ideal) X T A (ix2 p q) = entryPow (X (ix2 p q)) (T (ix2 p q)) (A (ix1 q)) := by
  simp only [val_main_v20_apply, val_main_v19_apply, val_main_v9_apply, val_main_v18_apply, val_main_v6_apply,
    val_main_v8_apply, val_main_v7_apply, val_main_v1_apply, val_main_v0_apply, val_main_v5_apply,
    val_main_v3_apply, val_main_v2_apply, val_main_cst_apply, val_main_v4_apply, val_main_cst_0_apply,
    val_main_v15_apply, val_main_v11_apply, val_main_v10_apply, val_main_cst_1_apply, val_main_v14_apply,
    val_main_v13_apply, val_main_v12_apply, val_main_cst_2_apply, val_main_v17_apply, val_main_v16_apply,
    val_main_cst_3_apply, alpha_index, Ideal.hostNegf_def, Ideal.negf_def, Ideal.addf_def, Ideal.mulf_def,
    Ideal.subf_def, Ideal.hostUnary_log_def, Ideal.hostPowf_def, Ideal.ofBits_def]
  rfl

/-- On finite inputs the reference's result is the mean. -/
theorem value_eq_mean (X T : (⟨S262144x64, .f32⟩ : BufTy).Contents (Elt Ideal))
    (A : (⟨S64, .f32⟩ : BufTy).Contents (Elt Ideal)) (hX : ∀ i, ∃ r : ℝ, X i = (r : EReal)) :
    val_main_v22 (F := Ideal) X T A = mean X T A := by
  funext i
  rw [val_main_v22_apply, val_main_v21_apply, val_main_cst_5_apply, val_main_cst_4_apply]
  show Ideal.div (zeroW + ∑ j : S262144x64.Idx, val_main_v20 (F := Ideal) X T A j) countW = total X T A * invCountW
  rw [div_count, zeroW_eq, zero_add, sum_idx2]
  refine congrArg (fun s : EReal => s * invCountW) ?_
  unfold total
  refine Finset.sum_congr rfl fun p _ => Finset.sum_congr rfl fun q _ => ?_
  rw [negated_apply]
  obtain ⟨r, hr⟩ := hX (ix2 p q)
  rw [hr]
  exact entryPow_eq_entry r _ _

end Cert.Focal.Ref

end
-- ==== Proof.FocalBlocks.lean ====
/-
  What the windows hold at a grid point, in terms of the argument arrays.

  The grid has 64 points.  At point t the first two windows hold rows 4096 t … 4096 t + 4095 of inputs and of targets
  (all 64 columns); the third holds alpha, reshaped to one row before the call, at every point.  So the sum of the
  entries' losses over what the windows hold at point t is the sum over block t of the arrays.
-/
import proofs.«159501_j20469814133055_2_alg».proof.Proof.Gen.KernelIdeal.Frame
import proofs.«159501_j20469814133055_2_alg».proof.Proof.FocalSpec
import Idealize.ShloMosaic.Lib.Pipeline.Value
import Idealize.ShloMosaic.Lib.StableHlo.Run
import Idealize.ShloMosaic.Lib.ValueLayout
import Idealize.ShloMosaic.Lib.Tactic

noncomputable section

open scoped BigOperators

namespace Cert.Focal.Kernel

open Cert.KernelIdeal Cert.KernelIdeal.Gen Cert.Focal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The three argument arrays as the launch finds them: inputs, targets, alpha. -/
abbrev argX (c : Dev nD) : (⟨2, ![262144, 64]⟩ : Shape).Idx → EReal := m ((c : Thread nD τ).loc main_arg0)
abbrev argT (c : Dev nD) : (⟨2, ![262144, 64]⟩ : Shape).Idx → EReal := m ((c : Thread nD τ).loc main_arg1)
abbrev argA (c : Dev nD) : (⟨1, ![64]⟩ : Shape).Idx → EReal := m ((c : Thread nD τ).loc main_arg2)

/-- A grid point as a number below 64. -/
def pt (t : Fin cfg0.N) : Fin 64 := ⟨t.val, lt_of_lt_of_eq t.isLt (show cfg0.N = 64 from N_0)⟩

/-- Where the three input windows sit at grid point `t`: inputs' and targets' blocks at block row `t`, column
    block 0; alpha's row always at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)

/-- Entry `(r, q)` of inputs' block at point `t` is entry `(4096 t + r, q)` of inputs. -/
theorem xblock_apply (c : Dev nD) (t : Fin cfg0.N) (r : Fin 4096) (q : Fin 64) :
    (iblk m c 0 t : FVec Ideal S4096x64 .f32) (ix2 r q) = argX m c (ix2 (rowOf (pt t) r) q) := by
  unfold iblk
  rw [View.read_apply]
  show V m c main_arg0 _ = _
  rw [V_main_arg0]
  refine congrArg (m ((c : Thread nD τ).loc main_arg0)) (funext fun a => Fin.ext ?_)
  match a with
  | ⟨0, _⟩ =>
    show win0_0.index t 0 * 4096 + 1 * r.val = 4096 * t.val + r.val
    rw [(index_facts t).1]; omega
  | ⟨1, _⟩ =>
    show win0_0.index t 1 * 64 + 1 * q.val = q.val
    rw [(index_facts t).2.1]; omega

/-- Entry `(r, q)` of targets' block at point `t` is entry `(4096 t + r, q)` of targets. -/
theorem tblock_apply (c : Dev nD) (t : Fin cfg0.N) (r : Fin 4096) (q : Fin 64) :
    (iblk m c 1 t : FVec Ideal S4096x64 .f32) (ix2 r q) = argT m c (ix2 (rowOf (pt t) r) q) := by
  unfold iblk
  rw [View.read_apply]
  show V m c main_arg1 _ = _
  rw [V_main_arg1]
  refine congrArg (m ((c : Thread nD τ).loc main_arg1)) (funext fun a => Fin.ext ?_)
  match a with
  | ⟨0, _⟩ =>
    show win0_1.index t 0 * 4096 + 1 * r.val = 4096 * t.val + r.val
    rw [(index_facts t).2.2.1]; omega
  | ⟨1, _⟩ =>
    show win0_1.index t 1 * 64 + 1 * q.val = q.val
    rw [(index_facts t).2.2.2.1]; omega

/-- The 1 × 64 array the third window reads is alpha viewed as one row. -/
theorem alpha_row (c : Dev nD) :
    (V m c main_v0 : S1x64.Idx → EReal) = shapeCast S1x64 (m ((c : Thread nD τ).loc main_arg2)) shapeCasts_S64_S1x64 := by
  show StableHlo.after hostOps0 (fun b => m (c, b)) (Proc.devRef .tc main_v0) = _
  after_results
  rfl

/-- Entry `(0, q)` of alpha's block, at any point, is alpha's entry `q`. -/
theorem ablock_apply (c : Dev nD) (t : Fin cfg0.N) (q : Fin 64) :
    (iblk m c 2 t : FVec Ideal S1x64 .f32) (ix2 (0 : Fin 1) q) = argA m c (ix1 q) := by
  unfold iblk
  rw [View.read_apply]
  show V m c main_v0 _ = _
  rw [alpha_row]
  have e : ((cfg0.win 2).blk t).view.emb (ix2 (0 : Fin 1) q) = ix2 (0 : Fin 1) q :=
    funext fun a => Fin.ext (by
      match a with
      | ⟨0, _⟩ =>
        show win0_2.index t 0 * 1 + 1 * 0 = 0
        rw [(index_facts t).2.2.2.2.1]
      | ⟨1, _⟩ =>
        show win0_2.index t 1 * 64 + 1 * q.val = q.val
        rw [(index_facts t).2.2.2.2.2]; omega)
  refine (congrArg (shapeCast S1x64 (m ((c : Thread nD τ).loc main_arg2)) shapeCasts_S64_S1x64) e).trans ?_
  exact shapeCast_a_1a_apply _ _ (0 : Fin 1) q

/-- The block's sum of losses at point `t`, over what the windows hold, is the block sum of the arguments. -/
theorem point_sum (c : Dev nD) (t : Fin cfg0.N) :
    (∑ r : Fin 4096, ∑ q : Fin 64, entry ((iblk m c 0 t : FVec Ideal S4096x64 .f32) (ix2 r q))
        ((iblk m c 1 t : FVec Ideal S4096x64 .f32) (ix2 r q)) ((iblk m c 2 t : FVec Ideal S1x64 .f32) (ix2 (0 : Fin 1) q)))
      = blockSum (argX m c) (argT m c) (argA m c) (pt t) := by
  unfold blockSum
  refine Finset.sum_congr rfl fun r _ => Finset.sum_congr rfl fun q _ => ?_
  rw [xblock_apply, tblock_apply, ablock_apply]

end Cert.Focal.Kernel

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.FocalPoint.lean ====
/-
  What one grid point's arithmetic computes, read at the accumulator's one entry.

  At a point the body holds a 4096 × 64 block of inputs `x`, the matching block of targets `t`, alpha as a 1 × 64 row
  `a`, and the 1 × 1 accumulator `s`.  It forms the loss of every entry of the block (alpha's row spread over the
  rows), sums each row over its 64 lanes, sums the 4096 row sums, and adds the block's sum to the accumulator:
      s  ↦  s + Σ_r Σ_q ℓ(x(r, q), t(r, q), a(0, q)).
  The two reductions start from +0.0 and are plain sums at the ideal values.  The first point stores +0.0 into the
  accumulator beforehand; the last multiplies the accumulator by 2⁻²⁴ into the output.
-/
import proofs.«159501_j20469814133055_2_alg».proof.Proof.Gen.KernelIdeal.Skeleton
import proofs.«159501_j20469814133055_2_alg».proof.Proof.FocalSpec
import proofs.«159501_j20469814133055_2_alg».proof.Proof.LibColumn
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Focal.Point

open Idealize.ShloMosaic Idealize.ShloMosaic.ValueIdx
open Cert.KernelIdeal Cert.KernelIdeal.Gen Cert.Focal

/-- The sum along the lanes, at row `r`: the sum over the 64 columns of that row. -/
theorem rowSum_apply (v : FVec Ideal S4096x64 .f32) (r : Fin 4096) :
    multiReduction (F := Ideal) .add [1] S4096 v 0x00000000#32 reduces_S4096x64_S4096 (.inl rfl) rfl (ix1 r)
      = ∑ q : Fin 64, v (ix2 r q) :=
  (Ideal.multiReduction_add_single v _ reduces_S4096x64_S4096 (.inl rfl) rfl (ix1 r)).trans
    (Finset.sum_congr rfl fun q _ => congrArg v (funext fun a => match a with | ⟨0, _⟩ => rfl | ⟨1, _⟩ => rfl))

/-- The sum of a 4096 × 1 column along its rows, at its one entry: the sum over the 4096 rows. -/
theorem colSum_apply (w : FVec Ideal S4096x1 .f32) :
    multiReduction (F := Ideal) .add [0] S1 w 0x00000000#32 reduces_S4096x1_S1 (.inl rfl) rfl (ix1 (0 : Fin 1))
      = ∑ r : Fin 4096, w (ix2 r (0 : Fin 1)) :=
  (Ideal.multiReduction_add_single w _ reduces_S4096x1_S1 (.inl rfl) rfl (ix1 (0 : Fin 1))).trans
    (Finset.sum_congr rfl fun r _ => congrArg w (funext fun a => match a with | ⟨0, _⟩ => rfl | ⟨1, _⟩ => rfl))

/-- The accumulating store's value: the accumulator plus the block's sum of losses. -/
theorem pay2_apply (x0 x1 : FVec Ideal S4096x64 .f32) (x2 : FVec Ideal S1x64 .f32) (xs : FVec Ideal S1x1 .f32) :
    k0_pay2 (F := Ideal) x0 x1 x2 xs (ix2 (0 : Fin 1) (0 : Fin 1))
      = xs (ix2 (0 : Fin 1) (0 : Fin 1))
        + ∑ r : Fin 4096, ∑ q : Fin 64, entry (x0 (ix2 r q)) (x1 (ix2 r q)) (x2 (ix2 (0 : Fin 1) q)) := by
  unfold k0_pay2
  dsimp only
  simp only [shapeCast_self]
  show xs (ix2 (0 : Fin 1) (0 : Fin 1)) + shapeCast S1x1 _ shapeCasts_S1_S1x1 (ix2 (0 : Fin 1) (0 : Fin 1)) = _
  rw [Cert.Lib.shapeCast_a_a1_apply, colSum_apply]
  refine congrArg (fun s : EReal => xs (ix2 (0 : Fin 1) (0 : Fin 1)) + s) ?_
  refine Finset.sum_congr rfl fun r _ => ?_
  rw [Cert.Lib.shapeCast_a_a1_apply, rowSum_apply]
  refine Finset.sum_congr rfl fun q _ => ?_
  show zeroW - (x1 (ix2 r q) * Ideal.log (x0 (ix2 r q)) * ((oneW - x0 (ix2 r q)) * (oneW - x0 (ix2 r q)))
      * broadcastTo S4096x64 x2 broadcasts_S1x64_S4096x64 (ix2 r q)
      + (oneW - x1 (ix2 r q)) * Ideal.log (oneW - x0 (ix2 r q)) * (x0 (ix2 r q) * x0 (ix2 r q))) = _
  rw [broadcastTo_1b_ab_apply]
  rfl

/-- The first point's reset stores `+0.0`. -/
theorem pay1_apply : k0_pay1 (F := Ideal) (ix2 (0 : Fin 1) (0 : Fin 1)) = zeroW := by
  unfold k0_pay1
  rw [shapeCast_self]
  rfl

/-- The last point's output store: the accumulator times `2⁻²⁴`. -/
theorem pay3_apply (v : FVec Ideal S1x1 .f32) :
    k0_pay3 (F := Ideal) v (ix2 (0 : Fin 1) (0 : Fin 1)) = v (ix2 (0 : Fin 1) (0 : Fin 1)) * invCountW := rfl

end Cert.Focal.Point

end
-- ==== Proof.FocalCases.lean ====
/-
  What each control case of the body leaves behind, as values.

  The body runs in one of three ways: at the first grid point it first stores +0.0 into the accumulator and then
  accumulates; at the points in between it only accumulates; at the last point it accumulates and then writes the
  accumulator, scaled, to the output.  In every case the accumulator ends at the accumulating store's value computed
  from the three input blocks and from what the accumulator held just before — the freshly stored zero at the first
  point, the previous point's value otherwise.  At the last point the output ends at the scaling of that new
  accumulator: the body reads the accumulator back after having overwritten it.  Holds for any float values.
-/
import proofs.«159501_j20469814133055_2_alg».proof.Proof.Gen.KernelIdeal.Frame
import Idealize.ShloMosaic.Lib.Pipeline.Value
import Idealize.ShloMosaic.Lib.Tactic

noncomputable section
namespace Cert.Focal.Cases
open Cert.KernelIdeal Cert.KernelIdeal.Gen
open Idealize.ShloMosaic Idealize.ShloMosaic.TcCoe Idealize.SL.Sem Idealize.ShloMosaic.Tactic
variable {F : FTy → Type} [FloatOps F]

/-- The origin, as the offset of a load or store of a whole buffer. -/
theorem hz : (![0, 0] : Fin 2 → Nat) = fun _ => 0 := funext fun a => by fin_cases a <;> rfl

/-- A middle point: the accumulator ends at the accumulating store's value over its previous contents. -/
theorem scratch_B (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 : Vec F S4096x64 .f32) (x2 : Vec F S1x64 .f32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  rw [View.canon_unit_zero hz]
  simp only [View.readAt_eq_ld, harg1.read_unread, harg2.read_unread, harg3.read_unread, harg5.read_unread,
    View.ld_unit_zero (S := S4096x64) hz, View.ld_unit_zero (S := S1x64) hz, View.ld_unit_zero (S := S1x1) hz]

/-- The first point: the same over the zero just stored (the body reads its own store back). -/
theorem scratch_A (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 : Vec F S4096x64 .f32) (x2 : Vec F S1x64 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S4096x64) hz, View.ld_unit_zero (S := S1x64) hz, View.ld_unit_zero (S := S1x1) hz]

/-- The last point: the output ends at the scaling of the NEW accumulator, read back after the accumulating store. -/
theorem out_C (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x64 .f32) (x2 : Vec F S1x64 .f32) (xs0 : Vec F S1x1 .f32) :
    out0_C_3 c i arg1 harg1 arg2 harg2 arg3 harg3 arg4 harg4 arg5 harg5 hc0 hc1 x0 x1 x2 xs0 = k0_pay3 (k0_pay2 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S4096x64) hz, View.ld_unit_zero (S := S1x64) hz, View.ld_unit_zero (S := S1x1) hz]

/-- The last point: the accumulator ends as at a middle point. -/
theorem scratch_C (c : Dev nD) (i : grid0.Coords) (arg1 : Memref sig .tc .vmem S4096x64 .f32) (harg1 : arg1.IsWhole) (arg2 : Memref sig .tc .vmem S4096x64 .f32) (harg2 : arg2.IsWhole) (arg3 : Memref sig .tc .vmem S1x64 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 : Vec F S4096x64 .f32) (x2 : Vec F S1x64 .f32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S4096x64) hz, View.ld_unit_zero (S := S1x64) hz, View.ld_unit_zero (S := S1x1) hz]

end Cert.Focal.Cases
end
-- ==== Proof.FocalAcc.lean ====
/-
  The accumulator across the grid, and the output after the last point.

  By the three cases of the body, the accumulator after point 0 is +0.0 plus block 0's sum, and after point n + 1 it is
  its value after point n plus block n + 1's sum.  By induction on the point it holds the blocks 0 … n added one after
  another from zero; after point 63 that is the sum of all blocks, the sum over all rows.  The last point writes the
  accumulator times 2⁻²⁴ to the output: the mean.
-/
import proofs.«159501_j20469814133055_2_alg».proof.Proof.FocalBlocks
import proofs.«159501_j20469814133055_2_alg».proof.Proof.FocalPoint
import proofs.«159501_j20469814133055_2_alg».proof.Proof.FocalCases

noncomputable section

open scoped BigOperators

namespace Cert.Focal.Kernel

open Cert.KernelIdeal Cert.KernelIdeal.Gen Cert.Focal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- After the first point the accumulator holds the accumulating store's value over the zero just stored. -/
theorem scratch_first (c : Dev nD) (h : 0 < cfg0.N) :
    (outsAt0 m c 0 h).2 = k0_pay2 (iblk m c 0 ⟨0, h⟩) (iblk m c 1 ⟨0, h⟩) (iblk m c 2 ⟨0, h⟩) (k0_pay1 (F := Ideal)) := by
  have h0 : (⟨0, h⟩ : Fin cfg0.N).val % 64 = 0 := Nat.zero_mod 64
  have h1 : ¬(⟨0, h⟩ : Fin cfg0.N).val % 64 = 63 := by dsimp only; omega
  exact (congrArg Prod.snd (outsAt0_A m c ⟨0, h⟩ h0 h1)).trans
    (Cases.scratch_A (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh))
      (iblk m c 0 ⟨0, h⟩) (iblk m c 1 ⟨0, h⟩) (iblk m c 2 ⟨0, h⟩))

/-- After a later point it holds that value over what the point before left. -/
theorem scratch_succ (c : Dev nD) (n : ℕ) (h : n + 1 < cfg0.N) :
    (outsAt0 m c (n + 1) h).2 = k0_pay2 (iblk m c 0 ⟨n + 1, h⟩) (iblk m c 1 ⟨n + 1, h⟩) (iblk m c 2 ⟨n + 1, h⟩)
      (outsAt0 m c n (Nat.lt_of_succ_lt h)).2 := by
  have hN : n + 1 < 64 := lt_of_lt_of_eq h (show cfg0.N = 64 from N_0)
  have h0 : ¬(⟨n + 1, h⟩ : Fin cfg0.N).val % 64 = 0 := by dsimp only; omega
  by_cases h1 : (⟨n + 1, h⟩ : Fin cfg0.N).val % 64 = 63
  · exact (congrArg Prod.snd (outsAt0_C m c ⟨n + 1, h⟩ h0 h1)).trans
      (Cases.scratch_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) _)
  · exact (congrArg Prod.snd (outsAt0_B m c ⟨n + 1, h⟩ h0 h1)).trans
      (Cases.scratch_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) _)

/-- After point `n` the accumulator holds the blocks `0 … n` added one after another from zero. -/
theorem acc_eq (c : Dev nD) : ∀ (n : ℕ) (h : n < cfg0.N),
    (outsAt0 m c n h).2 (ix2 (0 : Fin 1) (0 : Fin 1))
      = accUpTo (blockSum (argX m c) (argT m c) (argA m c)) n (lt_of_lt_of_eq h (show cfg0.N = 64 from N_0))
  | 0, h => by
    rw [scratch_first m c h]
    refine (Point.pay2_apply (iblk m c 0 ⟨0, h⟩) (iblk m c 1 ⟨0, h⟩) (iblk m c 2 ⟨0, h⟩) (k0_pay1 (F := Ideal))).trans ?_
    rw [Point.pay1_apply, point_sum m c ⟨0, h⟩]
    rfl
  | n + 1, h => by
    rw [scratch_succ m c n h]
    refine (Point.pay2_apply (iblk m c 0 ⟨n + 1, h⟩) (iblk m c 1 ⟨n + 1, h⟩) (iblk m c 2 ⟨n + 1, h⟩)
      (outsAt0 m c n (Nat.lt_of_succ_lt h)).2).trans ?_
    rw [acc_eq c n (Nat.lt_of_succ_lt h), point_sum m c ⟨n + 1, h⟩]
    rfl

/-- At the last point the output's buffer holds the scaling of the accumulator's new contents. -/
theorem out_last (c : Dev nD) (t : Fin cfg0.N) (h63 : t.val = 63) :
    (outsAt0 m c t.val t.isLt).1 = k0_pay3 (outsAt0 m c t.val t.isLt).2 := by
  have h0 : ¬t.val % 64 = 0 := by omega
  have h1 : t.val % 64 = 63 := by omega
  rw [outsAt0_C m c t h0 h1]
  exact (Cases.out_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1)
      (iblk m c 0 t) (iblk m c 1 t) (iblk m c 2 t) _).trans
    (congrArg k0_pay3 (Cases.scratch_C (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1)
      (iblk m c 0 t) (iblk m c 1 t) (iblk m c 2 t) _).symm)

/-- The 1 × 1 result array: the mean at its one entry. -/
def outArr (c : Dev nD) : Buf (Elt Ideal) ((c : Thread nD τ).loc main_v1) :=
  fun _ => total (argX m c) (argT m c) (argA m c) * invCountW

/-- So after the last point the output's buffer holds the mean: the accumulator is then the sum of all 64 blocks,
    which is the sum over all rows. -/
theorem out_value (c : Dev nD) (t : Fin cfg0.N) (h63 : t.val = 63) :
    (outsAt0 m c t.val t.isLt).1 = outArr m c := by
  rw [out_last m c t h63]
  obtain ⟨n, hn⟩ := t
  dsimp only at h63
  subst h63
  funext j
  obtain ⟨a, b, rfl⟩ : ∃ (a b : Fin 1), j = ix2 a b := ⟨j 0, j 1, eq_ix2 j⟩
  obtain rfl : a = 0 := Subsingleton.elim _ _
  obtain rfl : b = 0 := Subsingleton.elim _ _
  refine (Point.pay3_apply _).trans ?_
  show (outsAt0 m c 63 hn).2 (ix2 (0 : Fin 1) (0 : Fin 1)) * invCountW = total (argX m c) (argT m c) (argA m c) * invCountW
  rw [acc_eq m c 63 hn, accUpTo_last, ← total_eq_sum_blocks]

end Cert.Focal.Kernel

end
-- ==== Proof.FocalRun.lean ====
/-
  From the output's staging buffer to the program's result.

  The output window is written back once, after the last grid point; its 1 × 1 block is the whole 1 × 1 result array,
  so that array ends holding the mean.  The program then views the array as a scalar, which is the result.  The three
  argument arrays end as they began.
-/
import proofs.«159501_j20469814133055_2_alg».proof.Proof.FocalAcc

noncomputable section

open scoped BigOperators

namespace Cert.Focal.Kernel

open Cert.KernelIdeal Cert.KernelIdeal.Gen Cert.Focal
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The output window's one block sits at the origin at every point. -/
theorem index3_facts : ∀ t : Fin cfg0.N, win0_3.index t (0 : Fin 2) = 0 ∧ win0_3.index t (1 : Fin 2) = 0 :=
  (by decide +kernel : ∀ t : Fin grid0.N, _)

/-- The one write-back happens after the last point and writes the mean: the 1 × 1 block is the whole array. -/
theorem flushed_eq (c : Dev nD) (t : Fin cfg0.N) (hf : (cfg0.win 3).flush t = true) :
    (dats m 0 c).flushed 3 t = ((cfg0.win 3).blk t).view.read (Elt Ideal) (outArr m c) := by
  have hN : cfg0.N = 64 := N_0
  have h63 : t.val = 63 := by have := (flush0_3 t).mp hf; have := t.isLt; omega
  show (cfg0.win 3).cut (grid0.coords t) ((dats m 0 c).after 3 t) = _
  rw [after0_3, out_value m c t h63]
  have hz' : (fun a => win0_3.index t a * main_v1.ty.shape.size a) = fun _ => 0 := funext fun a => by
    match a with
    | ⟨0, _⟩ => show win0_3.index t 0 * _ = 0; rw [(index3_facts t).1, Nat.zero_mul]
    | ⟨1, _⟩ => show win0_3.index t 1 * _ = 0; rw [(index3_facts t).2, Nat.zero_mul]
  exact (Memref.read_access_unit_zero (Elt Ideal) main_v1 hz' (fun a => by rw [congrFun hz' a]; simp) (outArr m c)).symm

/-- The last grid point. -/
def tLast : Fin cfg0.N := ⟨63, by rw [show cfg0.N = 64 from N_0]; decide⟩

/-- That block covers the 1 × 1 result array, which therefore ends holding the mean. -/
theorem final_out (c : Dev nD) : (dats m 0 c).arrAt 3 cfg0.N = outArr m c :=
  (dats m 0 c).arrAt_eq_of_cover 3 (outArr m c) (flushed_eq m c) fun i =>
    ⟨tLast, (flush0_3 tLast).mpr rfl, by
      show i ∈ ((View.whole main_v1).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index tLast 0 * win0_3.size 0 ≤ (i 0 : Nat) ∧ (i 0 : Nat) < win0_3.index tLast 0 * win0_3.size 0 + win0_3.xsize (grid0.coords tLast) 0
        rw [(index3_facts tLast).1, show win0_3.xsize (grid0.coords tLast) 0 = 1 from by decide +kernel]; omega
      | ⟨1, _⟩ =>
        show win0_3.index tLast 1 * win0_3.size 1 ≤ (i 1 : Nat) ∧ (i 1 : Nat) < win0_3.index tLast 1 * win0_3.size 1 + win0_3.xsize (grid0.coords tLast) 1
        rw [(index3_facts tLast).2, show win0_3.xsize (grid0.coords tLast) 1 = 1 from by decide +kernel]; omega⟩

/-- The program's result is that array viewed as a scalar. -/
theorem tail_value (c : Dev nD) :
    Pipeline.afterTail₀ cfgs (dats m) 0 (V0 m) [hostOps1] c main_v2 = mean (argX m c) (argT m c) (argA m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
      (Proc.devRef .tc main_v1) = outArr m c :=
    (Pipeline.withArrays_arr spec0 launch0.win.arr_inj c _ _ 3).trans (final_out m c)
  rw [hw]
  rfl

/-- The idealized kernel's run, read: the result at the mean of the argument arrays, the arguments unchanged. -/
theorem run : θ_run defs (onTc (τ := τ) (main (F := Ideal))) ⟨m, fun _ => 0, ρ⟩ fun r => ∀ c : Dev nD,
      r.2.mem ((c : Thread nD τ).loc main_v2) = mean (argX m c) (argT m c) (argA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v2 (Pipeline.mem_restRefs_of main_v2 (by decide) (by decide))).trans (tail_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Focal.Kernel

end
-- ==== Proof.FocalFinite.lean ====
/-
  From the precondition to "every entry of inputs is a real number".

  The precondition is the conjunction, over the three argument arrays, of "every entry's magnitude is below +∞".  Its
  first conjunct, read at an entry of inputs, says |x| < +∞ on the extended reals; since |±∞| = +∞ is not below +∞,
  x is neither infinity, hence a real.  (Only inputs' finiteness is needed: the square of 1 − x and of x by the power
  function is the product only on a finite base.)
-/
import proofs.«159501_j20469814133055_2_alg».proof.Pre_finite_inputs
import proofs.«159501_j20469814133055_2_alg».proof.Proof.Gen.Pre_finite_inputs
import Idealize.ShloMosaic.Lib.ReduceAll
import Idealize.ShloMosaic.Lib.ValueIdx
import Idealize.ShloMosaic.PureOps.Ideal.Laws
import Idealize.ShloMosaic.Lib.Pipeline.Value

noncomputable section
namespace Cert.Focal.Finite
open Idealize.ShloMosaic Idealize.ShloMosaic.ValueIdx Cert.Pre_finite_inputs

/-- The scalar shape has one index. -/
instance : Subsingleton S_.Idx := ⟨fun a b => funext fun d => d.elim0⟩

/-- An extended real whose magnitude is below `+∞` is a real. -/
theorem real_of_abs_lt_inf (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have hinf : Ideal.ofBits .f32 0x7F800000#32 = ⊤ := by simp [Ideal.ofBits, Ideal.ieee]
  rw [hinf, Ideal.hostAbsf_def, Ideal.absf_def, Ideal.cmpf_def] at h
  induction x using EReal.rec with
  | bot => exfalso; revert h; simp [Ideal.cmp]
  | top => exfalso; revert h; simp [Ideal.cmp]
  | coe r => exact ⟨r, rfl⟩

/-- Under the precondition every entry of the first argument is a real. -/
theorem finite_arg0 (X T : FVec Ideal S262144x64 .f32) (A : FVec Ideal S64 .f32)
    (h : fn (F := Ideal) X T A = fun _ => 1#1) (i : S262144x64.Idx) : ∃ r : ℝ, X i = (r : EReal) := by
  have h0 := congrFun h ix0
  dsimp only [fn] at h0
  have h1 : IntOp.andi (IntOp.andi _ _) _ = 1#1 := h0
  have h2 := (IntOp.andi_eq_one.mp (IntOp.andi_eq_one.mp h1).1).1
  have h3 := Host.reduce_andi_all _ _ _ _ _ h2 i
  refine real_of_abs_lt_inf (X i) ?_
  have hb : broadcastInDim S262144x64 ![] Facts.bcast_S_S262144x64 (constant (F := Ideal) S_ .f32 0x7F800000#32) i
      = Ideal.ofBits .f32 0x7F800000#32 :=
    broadcastInDim_apply _ Facts.bcast_S_S262144x64 (constant (F := Ideal) S_ .f32 0x7F800000#32) i (fun a => a.elim0) (fun a => a.elim0)
  rw [← hb]
  exact h3

end Cert.Focal.Finite
end
-- ==== Proof.lean ====
/-
  Mean-reduced focal binary cross-entropy: a gridded kernel with a running accumulator against the direct formula.

  With x = inputs and t = targets (262144 × 64) and a = alpha (64 entries, one per column), both programs compute
      ( Σ over all entries of  −( t · log x · (1 − x)² · a  +  (1 − t) · log (1 − x) · x² ) ) / 2²⁴ .
  The kernel walks 64 blocks of 4096 rows, adds each block's sum (rows summed over their lanes, then the row sums) to
  a 1 × 1 accumulator that starts at +0.0, and after the last block writes the accumulator times 2⁻²⁴; it squares by a
  product and negates by subtracting from zero.  The reference squares by the power function with exponent 2, negates
  directly, sums everything at once and divides by 2²⁴.

  Over the extended reals the two agree on finite inputs: a finite base's power with exponent 2 is its product with
  itself (at −∞ it is not, which is the one place finiteness is used); 0 − y = −y; sums of extended reals can be
  regrouped freely; and dividing by 2²⁴ is multiplying by 2⁻²⁴.  The idealization changed no operation, so the
  kernel's idealized program is its own text read at the ideal values.
-/
import proofs.«159501_j20469814133055_2_alg».proof.Defs
import proofs.«159501_j20469814133055_2_alg».proof.Proof.Gen.Kernel
import proofs.«159501_j20469814133055_2_alg».proof.Proof.Gen.Kernel.Skeleton
import proofs.«159501_j20469814133055_2_alg».proof.Proof.Gen.Kernel.Launch
import proofs.«159501_j20469814133055_2_alg».proof.Proof.Gen.Kernel.Points
import proofs.«159501_j20469814133055_2_alg».proof.Proof.Gen.Kernel.Frame
import proofs.«159501_j20469814133055_2_alg».proof.Proof.Gen.KernelIdeal
import proofs.«159501_j20469814133055_2_alg».proof.Proof.Gen.KernelIdeal.Skeleton
import proofs.«159501_j20469814133055_2_alg».proof.Proof.Gen.KernelIdeal.Launch
import proofs.«159501_j20469814133055_2_alg».proof.Proof.Gen.KernelIdeal.Points
import proofs.«159501_j20469814133055_2_alg».proof.Proof.Gen.KernelIdeal.Frame
import proofs.«159501_j20469814133055_2_alg».proof.Proof.Gen.ReferenceIdeal
import proofs.«159501_j20469814133055_2_alg».proof.Proof.Gen.ReferenceIdeal.Run
import proofs.«159501_j20469814133055_2_alg».proof.Proof.Gen.ReferenceIdeal.Read
import proofs.«159501_j20469814133055_2_alg».proof.Proof.Gen.Pre_finite_inputs
import proofs.«159501_j20469814133055_2_alg».proof.Proof.RefSide
import proofs.«159501_j20469814133055_2_alg».proof.Proof.FocalRun
import proofs.«159501_j20469814133055_2_alg».proof.Proof.FocalFinite
import Idealize.ShloMosaic.Adequacy
import Idealize.ShloMosaic.Init

noncomputable section

namespace Cert.Proof

open Idealize.ShloMosaic Idealize.SL.Sem

/-- The kernel runs to completion without fault and leaves its arguments unchanged. -/
theorem frame_kernel : Cert.frame_Kernel := fun m ρ _ => Cert.Kernel.Gen.frame m ρ

/-- The same of its idealized program. -/
theorem frame_kernelIdeal : Cert.frame_KernelIdeal := fun m ρ _ => Cert.KernelIdeal.Gen.frame m ρ

/-- The reference, a straight line of array operations, runs and leaves its arguments unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On finite inputs both idealized programs end with the mean of the entries' losses. -/
theorem algebraic : Cert.algebraic_KernelIdeal_ReferenceIdeal := by
  intro m ρ m' ρ' hpre hagree
  refine ⟨fun c => Cert.Focal.mean (Cert.Focal.Kernel.argX m c) (Cert.Focal.Kernel.argT m c) (Cert.Focal.Kernel.argA m c),
    Cert.Focal.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v22_eq _ _ _).trans
    (Cert.Focal.Ref.value_eq_mean _ _ _ (Cert.Focal.Finite.finite_arg0 _ _ _ (hpre c)))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
